-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S1600000 32) (main_arg2 : IVec S1600000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S10000x128 : Shape := ⟨2, ![10000, 128]⟩

abbrev nBuf : Space → Nat
  | .hbm => 21
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S128x128, .f32⟩
  | .hbm, ⟨19, _⟩ => ⟨S1x128, .f32⟩
  | .hbm, ⟨20, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v9) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 23
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S128x128, .f32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.TilePayload.lean ====
/-
  One tile of the dense layer, read at an entry.

  At a grid point the kernel body loads a tile of 10000 rows of the aggregated features, the whole transposed weight
  matrix and the bias as a 1-by-128 row; it multiplies tile by matrix into a zero accumulator and adds the bias row
  broadcast down the 10000 rows. The narrowing of the two matrix operands to a 16-bit format is the identity on
  extended reals, and the casts to a block's own shape are identities. So the stored value at row p and column q of
  the tile is  (sum over k < 128 of tile[p,k] * Wt[k,q]) + bias[0,q].
-/
import proofs.«153498_j57664230916666_2_alg».proof.Proof.Gen.KernelIdeal.Skeleton
import proofs.«153498_j57664230916666_2_alg».proof.Proof.LibMatmulSum
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-! ## The tile product's dimension record: which coordinate of each operand comes from where -/

/-- The left operand's row is the output's row. -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

/-- The left operand's column is the contraction index. -/
theorem lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

/-- The right operand's row is the contraction index. -/
theorem rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

/-- The right operand's column is the output's column. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-! ## The bias row broadcast down the tile -/

/-- A 1-by-128 row broadcast to 10000 rows reads, at row p and column q, the row's entry q. -/
theorem bias_row_apply (v : FVec Ideal S1x128 .f32) (h : S1x128.Broadcasts S10000x128) (p : Fin 10000) (q : Fin 128) :
    broadcastTo S10000x128 v h (ix2 p q) = v (ix2 0 q) :=
  broadcastTo_apply v h (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-! ## The stored value at an entry of the tile -/

/-- The body's stored value at row p, column q of the tile. -/
theorem pay_entry (x0 : Vec Ideal S10000x128 .f32) (x1 : Vec Ideal S128x128 .f32) (x2 : Vec Ideal S1x128 .f32)
    (p : Fin 10000) (q : Fin 128) :
    k0_pay1 (F := Ideal) x0 x1 x2 (ix2 p q) = (∑ k : Fin 128, x0 (ix2 p k) * x1 (ix2 k q)) + x2 (ix2 0 q) := by
  unfold k0_pay1
  rw [shapeCast_self x0, shapeCast_self x1, shapeCast_self x2, addf_apply, bias_row_apply]
  refine congrArg (· + x2 (ix2 0 q)) ?_
  exact Cert.GraphConv.matmul_zero_sum dot_S10000x128_S128x128_S10000x128_1_0_0_1_n_n none rfl rfl lhs_row lhs_col rhs_row rhs_col _ _ (ix2 p q)

/-- The same at any index of the tile. -/
theorem pay_apply (x0 : Vec Ideal S10000x128 .f32) (x1 : Vec Ideal S128x128 .f32) (x2 : Vec Ideal S1x128 .f32)
    (y : S10000x128.Idx) :
    k0_pay1 (F := Ideal) x0 x1 x2 y = (∑ k : Fin 128, x0 (ix2 (y 0) k) * x1 (ix2 k (y 1))) + x2 (ix2 0 (y 1)) := by
  rw [eq_ix2 y]
  exact pay_entry x0 x1 x2 (y 0) (y 1)

end Cert.KernelIdeal.Tile

end
-- ==== Proof.LinearSpec.lean ====
/-
  The dense layer of the graph convolution as one function of three arrays.

  Given the aggregated node features A (100000 nodes by 128 input channels), the transposed weight matrix Wt
  (128 input channels by 128 output channels) and the bias b (128 output channels), the layer's output at node n
  and output channel j is

      (sum over k < 128 of A[n,k] * Wt[k,j]) + b[j]

  over the extended reals. Both programs compute exactly this sum, in this order of k, so no law of arithmetic
  beyond reading each side at an index is needed, and nothing here asks the inputs to be finite.
-/
import Idealize.ShloMosaic.PureOps.Ideal
import Idealize.ShloMosaic.Lib.ValueIdx

noncomputable section

namespace Cert.GraphConv

open Idealize.ShloMosaic Idealize.ShloMosaic.ValueIdx

/-- The dense layer: entry (n, j) is the inner product of row n of `A` with column j of `Wt`, plus `b j`. -/
def linearOut (A : FVec Ideal ⟨2, ![100000, 128]⟩ .f32) (Wt : FVec Ideal ⟨2, ![128, 128]⟩ .f32)
    (b : FVec Ideal ⟨1, ![128]⟩ .f32) : FVec Ideal ⟨2, ![100000, 128]⟩ .f32 :=
  fun i => (∑ k : Fin 128, A (ix2 (i 0) k) * Wt (ix2 k (i 1))) + b (ix1 (i 1))

theorem linearOut_apply (A : FVec Ideal ⟨2, ![100000, 128]⟩ .f32) (Wt : FVec Ideal ⟨2, ![128, 128]⟩ .f32)
    (b : FVec Ideal ⟨1, ![128]⟩ .f32) (i : (⟨2, ![100000, 128]⟩ : Shape).Idx) :
    linearOut A Wt b i = (∑ k : Fin 128, A (ix2 (i 0) k) * Wt (ix2 k (i 1))) + b (ix1 (i 1)) := rfl

-- Everything said about the layer follows from its value at an index (`linearOut_apply`); as a function of its three
-- arrays it is otherwise opaque.
attribute [irreducible] linearOut

end Cert.GraphConv

end
-- ==== Proof.KernelValue.lean ====
/-
  From tiles to the whole output array.

  The grid has ten points; point t works on rows 10000·t … 10000·t + 9999 of the aggregated features and of the
  output, and at every point on the whole transposed weight matrix and the whole bias row. What point t writes back is
  therefore tile t of the dense layer applied to the three arrays as the region finds them; the ten tiles cover all
  100000 rows (row r lies in tile r / 10000), so after the run the output array is the dense layer of those arrays.
-/
import proofs.«153498_j57664230916666_2_alg».proof.Proof.Gen.KernelIdeal.Value
import proofs.«153498_j57664230916666_2_alg».proof.Proof.TilePayload
import proofs.«153498_j57664230916666_2_alg».proof.Proof.LinearSpec

noncomputable section

namespace Cert.KernelIdeal.Whole

open Cert.KernelIdeal Cert.KernelIdeal.Gen Idealize.ShloMosaic Idealize.ShloMosaic.TcCoe Idealize.SL.Sem
open Idealize.ShloMosaic.ValueIdx Cert.GraphConv
open Idealize.ShloMosaic.Pipeline (Dat)

variable (m : (ℓ : Loc nD τ sig) → Buf (Elt Ideal) ℓ) (ρ : Dev nD → PrngReg)

/-- The body's rectangles start at the origin. -/
theorem origin : (![0, 0] : Fin 2 → Nat) = fun _ => 0 := funext fun a => by fin_cases a <;> rfl

/-- The bias as the dense layer reads it: entry j of the 1-by-128 row the region finds staged. -/
def biasOf (B2 : FVec Ideal S1x128 .f32) : FVec Ideal S128 .f32 := fun j => B2 (ix2 0 (j 0))

/-- The index maps over the ten grid points: the feature tile and the output tile sit at block row t, block column 0;
    the weight matrix and the bias row are always block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of a tile against the whole arrays: if the tile's row reads the array's row, the weights read the
    weights and the bias row reads the bias row, the body's stored value is the dense layer's entry. -/
theorem tile_entry (A : FVec Ideal S100000x128 .f32) (Wt : FVec Ideal S128x128 .f32) (B2 : FVec Ideal S1x128 .f32)
    (x0 : Vec Ideal S10000x128 .f32) (x1 : Vec Ideal S128x128 .f32) (x2 : Vec Ideal S1x128 .f32)
    (y : S10000x128.Idx) (i : S100000x128.Idx)
    (h0 : ∀ k : Fin 128, x0 (ix2 (y 0) k) = A (ix2 (i 0) k))
    (h1 : ∀ k : Fin 128, x1 (ix2 k (y 1)) = Wt (ix2 k (i 1)))
    (h2 : x2 (ix2 0 (y 1)) = B2 (ix2 0 (i 1))) :
    k0_pay1 (F := Ideal) x0 x1 x2 y = linearOut A Wt (biasOf B2) i := by
  rw [Cert.KernelIdeal.Tile.pay_apply, linearOut_apply, h2]
  refine congrArg (· + B2 (ix2 0 (i 1))) (Finset.sum_congr rfl fun k _ => ?_)
  rw [h0 k, h1 k]

/-- What point t writes back is tile t of the dense layer of the arrays the region finds. -/
theorem flushed_eq (c : Dev nD) (t : Fin cfg0.N) :
    (dats m 0 c).flushed 3 t = ((cfg0.win 3).blk t).view.read (Elt Ideal)
      (linearOut (V m c main_v9) (V m c main_v10) (biasOf (V m c main_v11))) := by
  rw [Cert.KernelIdeal.Value.flushed3]
  show out0_3 (iblk m c 0 t) (iblk m c 1 t) (iblk m c 2 t) = _
  unfold out0_3
  rw [View.canon_unit_zero origin]
  simp only [View.ld_unit_zero (S := S10000x128) origin, View.ld_unit_zero (S := S128x128) origin, View.ld_unit_zero (S := S1x128) origin]
  obtain ⟨e00, e01, e10, e11, e20, e21, e30, e31⟩ := block_indices t
  funext j
  have hj0 : (j 0).val < 10000 := (j 0).isLt
  have hj1 : (j 1).val < 128 := (j 1).isLt
  rw [View.read_apply, cast_eq]
  refine tile_entry (V m c main_v9) (V m c main_v10) (V m c main_v11) (iblk m c 0 t) (iblk m c 1 t) (iblk m c 2 t)
    j (((View.whole main_v12).slice ((win0 3).rect t)).emb j) (fun k => ?_) (fun k => ?_) ?_
  · unfold iblk
    rw [View.read_apply, cast_eq]
    refine congrArg (V m c main_v9) (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 128 + 1 * k.val = k.val; omega
  · unfold iblk
    rw [View.read_apply, cast_eq]
    refine congrArg (V m c main_v10) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · unfold iblk
    rw [View.read_apply, cast_eq]
    refine congrArg (V m c main_v11) (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega

/-- An index of the output array is in point t's tile iff each coordinate is in the tile's range on its axis. -/
theorem mem_tile (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v12).slice (win0_3.rect t)).set ↔ _
  rw [View.set_slice_whole, Rect.mem_set_unit]
  exact Iff.rfl

/-- Every index of the output array lies in some point's tile: row r in tile r / 10000. -/
theorem tiles_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by rw [show cfg0.N = 10 from N_0]; omega⟩, rfl⟩
  obtain ⟨-, -, -, -, -, -, e30, e31⟩ := block_indices t
  refine ⟨t, flush0_3 t, ?_⟩
  rw [mem_tile]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- After the run the output array is the dense layer of the three arrays the region finds. -/
theorem final (c : Dev nD) :
    (dats m 0 c).arrAt 3 cfg0.N = linearOut (V m c main_v9) (V m c main_v10) (biasOf (V m c main_v11)) :=
  (dats m 0 c).arrAt_eq_of_cover 3 _ (fun t _ => flushed_eq m c t) tiles_cover

end Cert.KernelIdeal.Whole

end
-- ==== Proof.RefValue.lean ====
/-
  The reference computes the dense layer of its own aggregated features.

  Its last three stages are: the product of the aggregated features with the transposed weights (a sum over the 128
  input channels), the bias laid out first as a 1-by-128 row and then down all 100000 rows, and their sum. Read at node n
  and output channel j this is (sum over k of agg[n,k] * Wt[k,j]) + b[j]: the dense layer of the specification, applied
  to the reference's own aggregation stage and its own transposed weights.
-/
import proofs.«153498_j57664230916666_2_alg».proof.Proof.Gen.ReferenceIdeal.Read
import proofs.«153498_j57664230916666_2_alg».proof.Proof.LinearSpec

noncomputable section

namespace Cert.ReferenceIdeal.RefValue

open Cert.ReferenceIdeal Cert.ReferenceIdeal.Gen Cert.ReferenceIdeal.Read Idealize.ShloMosaic Idealize.ShloMosaic.ValueIdx
open Cert.GraphConv

/-- The product's left operand is read at (row of the output, k). -/
theorem left_index (i : S100000x128.Idx) (k : Fin 128) : lidx_main_v11 i k = ix2 (i 0) k :=
  funext fun a => Fin.ext (by match a with | ⟨0, _⟩ => rfl | ⟨1, _⟩ => rfl)

/-- The product's right operand is read at (k, column of the output). -/
theorem right_index (i : S100000x128.Idx) (k : Fin 128) : ridx_main_v11 i k = ix2 k (i 1) :=
  funext fun a => Fin.ext (by match a with | ⟨0, _⟩ => rfl | ⟨1, _⟩ => rfl)

/-- Through the two broadcasts the bias is read at the output's column. -/
theorem bias_index (i : S100000x128.Idx) : idx_main_v12 (idx_main_v13 i) = ix1 (i 1) :=
  funext fun a => Fin.ext (by match a with | ⟨0, _⟩ => rfl)

/-- The reference's result is the dense layer of its aggregation stage, its transposed weights and the bias. -/
theorem result_eq (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal)) :
    val_main_v14 (F := Ideal) x0 x1 x2 x3 x4
      = linearOut (val_main_v9 (F := Ideal) x0 x1 x2) (val_main_v10 (F := Ideal) x3) x4 := by
  funext i
  rw [val_main_v14_apply, val_main_v11_apply, val_main_v13_apply, val_main_v12_apply, linearOut_apply]
  simp only [left_index, right_index, bias_index]
  rfl

end Cert.ReferenceIdeal.RefValue

end
-- ==== Proof.Staged.lean ====
/-
  What the kernel's region finds staged, against the reference's own stages.

  Before the region the kernel's host code aggregates the node features along the edges (wrap negative ids, gather
  the source rows, add them into the destination rows of a zero matrix), transposes the weight matrix and lays the
  bias out as a 1-by-128 row. The first two are, operation for operation, the reference's aggregation and transpose
  stages of the same argument arrays; the bias row read at column j is the bias at j.
-/
import proofs.«153498_j57664230916666_2_alg».proof.Proof.Gen.KernelIdeal.Frame
import proofs.«153498_j57664230916666_2_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregated features the region finds are the reference's aggregation stage of the kernel's arguments. -/
theorem agg_eq (c : Dev nD) :
    (V m c main_v9 : S100000x128.Idx → EReal)
      = Cert.ReferenceIdeal.Read.val_main_v9 (F := Ideal) (m ((c : Thread nD τ).loc main_arg0))
          (m ((c : Thread nD τ).loc main_arg1)) (m ((c : Thread nD τ).loc main_arg2)) := by
  dsimp only [Gen.V, Gen.hostOps0]
  after_results
  rfl

/-- The transposed weights the region finds are the reference's transpose stage of the kernel's weight argument. -/
theorem wt_eq (c : Dev nD) :
    (V m c main_v10 : S128x128.Idx → EReal)
      = Cert.ReferenceIdeal.Read.val_main_v10 (F := Ideal) (m ((c : Thread nD τ).loc main_arg3)) := by
  dsimp only [Gen.V, Gen.hostOps0]
  after_results
  rfl

/-- The bias row the region finds is the bias argument cast to a 1-by-128 row. -/
theorem bias_row_eq (c : Dev nD) :
    (V m c main_v11 : S1x128.Idx → EReal)
      = shapeCast S1x128 (m ((c : Thread nD τ).loc main_arg4) : S128.Idx → EReal) shapeCasts_S128_S1x128 := by
  dsimp only [Gen.V, Gen.hostOps0]
  after_results
  rfl

/-- Read at row 0 and column j it is the bias at j. -/
theorem bias_row_apply (c : Dev nD) (j : S128.Idx) :
    (V m c main_v11 : S1x128.Idx → EReal) (ix2 0 (j 0)) = (m ((c : Thread nD τ).loc main_arg4) : S128.Idx → EReal) j := by
  rw [bias_row_eq]
  refine shapeCast_apply _ _ (ix2 0 (j 0)) j ?_
  rw [Shape.rowMajor_val_one, Shape.rowMajor_val_two]
  show (j 0).val = 0 * 128 + (j 0).val
  omega

end Cert.KernelIdeal.Staged

end
-- ==== Proof.lean ====
/-
  A graph convolution: aggregate the source features of every edge into its destination node, then a dense layer.

  Both programs first aggregate on the host, by the same operations on the same arrays: ids below zero are wrapped by
  100000, the source rows of the node features are gathered edge by edge, and added into the destination rows of a zero
  matrix; both transpose the weight matrix. The reference then multiplies the aggregated matrix by the transposed
  weights and adds the bias, broadcast over the rows. The kernel does the same product ten tiles of 10000 rows at a
  time: each tile times the whole transposed weight matrix, into a zero accumulator, plus the bias row; its narrowing
  of the operands to a 16-bit format is the identity on extended reals.

  At node n and output channel j both results are  (sum over k < 128 of agg[n,k] * W[j,k]) + b[j],  the terms of the
  sum taken in the same order, so the two are equal on all extended reals and the inputs' finiteness is never used.

  The parts: the dense layer as one function (LinearSpec); the kernel's stored value at an entry of a tile
  (TilePayload, over the general matrix-product lemma of LibMatmulSum); the ten tiles assembled into the whole output
  array (KernelValue); the reference's last stages read at an index (RefValue); and that the arrays the kernel's region
  finds staged are the reference's own aggregation and transpose stages and the bias (Staged). The three frames are
  the generated ones; the kernel's idealization rewrote nothing, so that claim is trivial.
-/
import proofs.«153498_j57664230916666_2_alg».proof.Defs
import proofs.«153498_j57664230916666_2_alg».proof.Proof.Gen.Kernel
import proofs.«153498_j57664230916666_2_alg».proof.Proof.Gen.Kernel.Skeleton
import proofs.«153498_j57664230916666_2_alg».proof.Proof.Gen.Kernel.Launch
import proofs.«153498_j57664230916666_2_alg».proof.Proof.Gen.Kernel.Points
import proofs.«153498_j57664230916666_2_alg».proof.Proof.Gen.Kernel.Frame
import proofs.«153498_j57664230916666_2_alg».proof.Proof.Gen.KernelIdeal
import proofs.«153498_j57664230916666_2_alg».proof.Proof.Gen.KernelIdeal.Skeleton
import proofs.«153498_j57664230916666_2_alg».proof.Proof.Gen.KernelIdeal.Launch
import proofs.«153498_j57664230916666_2_alg».proof.Proof.Gen.KernelIdeal.Points
import proofs.«153498_j57664230916666_2_alg».proof.Proof.Gen.KernelIdeal.Frame
import proofs.«153498_j57664230916666_2_alg».proof.Proof.Gen.ReferenceIdeal
import proofs.«153498_j57664230916666_2_alg».proof.Proof.Gen.Pre_finite_inputs
import proofs.«153498_j57664230916666_2_alg».proof.Proof.Gen.KernelIdeal.Value
import proofs.«153498_j57664230916666_2_alg».proof.Proof.Gen.ReferenceIdeal.Run
import proofs.«153498_j57664230916666_2_alg».proof.Proof.Gen.ReferenceIdeal.Read
import proofs.«153498_j57664230916666_2_alg».proof.Proof.KernelValue
import proofs.«153498_j57664230916666_2_alg».proof.Proof.RefValue
import proofs.«153498_j57664230916666_2_alg».proof.Proof.Staged
import Idealize.ShloMosaic.Adequacy
import Idealize.ShloMosaic.Init

noncomputable section

namespace Cert.Proof

open Idealize.ShloMosaic Idealize.ShloMosaic.TcCoe Idealize.SL.Sem
open Cert.GraphConv

/-- The kernel as printed runs, and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs to its operations' composed term; dropping the result leaves the frame. -/
theorem frame_reference : Cert.frame_ReferenceIdeal := fun m ρ _ =>
  (θ_run Cert.ReferenceIdeal.defs _ _).mono (fun _ h c => (h c).2) (Cert.ReferenceIdeal.Value.run (F := Ideal) m ρ)

/-- The bias the dense layer reads off the staged 1-by-128 row is the bias argument. -/
theorem staged_bias (m : (ℓ : Loc Cert.KernelIdeal.nD Cert.KernelIdeal.τ Cert.KernelIdeal.sig) → Buf (Elt Ideal) ℓ)
    (c : Dev Cert.KernelIdeal.nD) :
    Cert.KernelIdeal.Whole.biasOf (Cert.KernelIdeal.Gen.V m c Cert.KernelIdeal.main_v11)
      = (m ((c.tc : Thread Cert.KernelIdeal.nD Cert.KernelIdeal.τ).loc Cert.KernelIdeal.main_arg4)) :=
  funext fun j => Cert.KernelIdeal.Staged.bias_row_apply m c j

/-- Both programs end with the dense layer of the aggregated features, the transposed weights and the bias: the
    kernel tile by tile, the reference in one product; the aggregated features and the transposed weights are the same
    host stages of arguments that agree. -/
theorem algebraic : Cert.algebraic_KernelIdeal_ReferenceIdeal := by
  intro m ρ m' ρ' _ hagree
  refine ⟨fun c => linearOut (Cert.KernelIdeal.Gen.V m c Cert.KernelIdeal.main_v9) (Cert.KernelIdeal.Gen.V m c Cert.KernelIdeal.main_v10)
      (Cert.KernelIdeal.Whole.biasOf (Cert.KernelIdeal.Gen.V m c Cert.KernelIdeal.main_v11)), ?_, ?_⟩
  · exact (θ_run Cert.KernelIdeal.defs _ _).mono
      (fun r h c => ⟨(h c).1.trans (Cert.KernelIdeal.Whole.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    rw [Cert.ReferenceIdeal.Read.val_main_v14_eq, Cert.ReferenceIdeal.RefValue.result_eq]
    beta_reduce
    rw [Cert.KernelIdeal.Staged.agg_eq m c, Cert.KernelIdeal.Staged.wt_eq m c, staged_bias m c]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
